-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x128 : Shape := ⟨2, ![320000, 128]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S320000x128 .f32) (main_arg2 : FVec F S128x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S320000x128 : Shape := ⟨2, ![320000, 128]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S200x128 : Shape := ⟨2, ![200, 128]⟩
abbrev S6400x128 : Shape := ⟨2, ![6400, 128]⟩
abbrev S1280x128 : Shape := ⟨2, ![1280, 128]⟩
abbrev S40x32x128 : Shape := ⟨3, ![40, 32, 128]⟩
abbrev S40x128 : Shape := ⟨2, ![40, 128]⟩
abbrev S200x256 : Shape := ⟨2, ![200, 256]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x128, .bf16⟩
  | .hbm, ⟨7, _⟩ => ⟨S256x128, .bf16⟩
  | .hbm, ⟨8, _⟩ => ⟨S1x128, .f32⟩
  | .hbm, ⟨9, _⟩ => ⟨S1x128, .f32⟩
  | .hbm, ⟨10, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S6400x128, .f32⟩
  | .local _ .vmem, ⟨3, _⟩ => ⟨S6400x128, .f32⟩
  | .local _ .vmem, ⟨4, _⟩ => ⟨S128x128, .bf16⟩
  | .local _ .vmem, ⟨5, _⟩ => ⟨S1x128, .f32⟩
  | .local _ .vmem, ⟨6, _⟩ => ⟨S256x128, .bf16⟩
  | .local _ .vmem, ⟨7, _⟩ => ⟨S1x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k0_mult1 (k0_t1 : Fin k0_t1_loop.trips) : BitVec 32 :=
  let c0_i32_16 : BitVec 32 := 0#32
  let c0_i32 : BitVec 32 := 0#32
  let c1_i32 : BitVec 32 := 1#32
  let arg9 : BitVec 32 := Scf.iv c0_i32 c1_i32 k0_t1
  let c1_i32_15 : BitVec 32 := 1#32
  let v19 : BitVec 32 := Scalar.muli arg9 c1_i32_15
  let v20 : BitVec 32 := Scalar.addi c0_i32_16 v19
  let c1280_i32 : BitVec 32 := 1280#32
  let v21 : BitVec 32 := Scalar.muli v20 c1280_i32
  v21
def k0_off1 (k0_t1 : Fin k0_t1_loop.trips) : Fin 2 → Nat :=
  let c0_i32_16 : BitVec 32 := 0#32
  let c0_i32 : BitVec 32 := 0#32
  let c1_i32 : BitVec 32 := 1#32
  let arg9 : BitVec 32 := Scf.iv c0_i32 c1_i32 k0_t1
  let c1_i32_15 : BitVec 32 := 1#32
  let v19 : BitVec 32 := Scalar.muli arg9 c1_i32_15
  let v20 : BitVec 32 := Scalar.addi c0_i32_16 v19
  let c1280_i32 : BitVec 32 := 1280#32
  let v21 : BitVec 32 := Scalar.muli v20 c1280_i32
  let v22 : BitVec 32 := v21
  let v23 : Index := Scalar.indexCast v22
  let c0_17 : Index := 0#32
  ![v23.toNat, 0]
def k0_mult2 (k0_t1 : Fin k0_t1_loop.trips) : BitVec 32 :=
  let c0_i32_16 : BitVec 32 := 0#32
  let c0_i32 : BitVec 32 := 0#32
  let c1_i32 : BitVec 32 := 1#32
  let arg9 : BitVec 32 := Scf.iv c0_i32 c1_i32 k0_t1
  let c1_i32_15 : BitVec 32 := 1#32
  let v19 : BitVec 32 := Scalar.muli arg9 c1_i32_15
  let v20 : BitVec 32 := Scalar.addi c0_i32_16 v19
  let c40_i32 : BitVec 32 := 40#32
  let v33 : BitVec 32 := Scalar.muli v20 c40_i32
  v33
def k0_off2 (k0_t1 : Fin k0_t1_loop.trips) : Fin 2 → Nat :=
  let c0_i32_16 : BitVec 32 := 0#32
  let c0_i32 : BitVec 32 := 0#32
  let c1_i32 : BitVec 32 := 1#32
  let arg9 : BitVec 32 := Scf.iv c0_i32 c1_i32 k0_t1
  let c1_i32_15 : BitVec 32 := 1#32
  let v19 : BitVec 32 := Scalar.muli arg9 c1_i32_15
  let v20 : BitVec 32 := Scalar.addi c0_i32_16 v19
  let c40_i32 : BitVec 32 := 40#32
  let v33 : BitVec 32 := Scalar.muli v20 c40_i32
  let v34 : BitVec 32 := v33
  let v35 : Index := Scalar.indexCast v34
  let c0_21 : Index := 0#32
  ![v35.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1280x128 : 0 < S1280x128.numel
  broadcasts_S1x128_S1280x128 : S1x128.Broadcasts S1280x128
  shapeCasts_S1280x128_S40x32x128 : S1280x128.ShapeCasts S40x32x128
  reduces_S40x32x128_S40x128 : S40x32x128.Reduces [1] S40x128
  h_S40x128 : 0 < S40x128.numel
  shapeCasts_S40x128_S40x128 : S40x128.ShapeCasts S40x128
  inb_S200x128_S200x128_0_0 : ∀ a, (![0, 0] : Fin 2 → Nat) a + S200x128.size a ≤ S200x128.size a
  h_S200x128 : 0 < S200x128.numel
  concatenates_S200x128_S200x128_S200x256_d1 : Shape.Concatenates [S200x128, S200x128] S200x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S200x128 : S1x128.Broadcasts S200x128
  dot_S1280x128_S128x128_S1280x128_1_0_0_1_n_n_wf : DotDims.WF S1280x128 S128x128 S1280x128 [1] [0] [0] [1] [] []
  dot_S200x256_S256x128_S200x128_1_0_0_1_n_n_wf : DotDims.WF S200x256 S256x128 S200x128 [1] [0] [0] [1] [] []
  hrank0 : 0 < grid0.rank
  k0_t1_ok : k0_t1_loop.OK
  k0_mult1_dvd : ∀ k0_t1 : Fin k0_t1_loop.trips, 1280 ∣ (k0_mult1 k0_t1).toNat
  k0_off1_inb : ∀ k0_t1 : Fin k0_t1_loop.trips, ∀ a, (k0_off1 k0_t1) a + S1280x128.size a ≤ S6400x128.size a
  k0_mult2_dvd : ∀ k0_t1 : Fin k0_t1_loop.trips, 40 ∣ (k0_mult2 k0_t1).toNat
  k0_off2_inb : ∀ k0_t1 : Fin k0_t1_loop.trips, ∀ a, (k0_off2 k0_t1) a + S40x128.size a ≤ S200x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S320000x128.size a
  hwx0_1 : ∀ i : grid0.Coords, EltTy.bits .f32 = 32 ∨ (Rect.block (s := S320000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S320000x128 : Shape := ⟨2, ![320000, 128]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S10000x32x128 : Shape := ⟨3, ![10000, 32, 128]⟩
abbrev S10000x256 : Shape := ⟨2, ![10000, 256]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S320000x128, .f32⟩
  | .hbm, ⟨7, _⟩ => ⟨S1x128, .f32⟩
  | .hbm, ⟨8, _⟩ => ⟨S320000x128, .f32⟩
  | .hbm, ⟨9, _⟩ => ⟨S320000x128, .f32⟩
  | .hbm, ⟨10, _⟩ => ⟨S_, .f32⟩
  | .hbm, ⟨11, _⟩ => ⟨S320000x128, .f32⟩
  | .hbm, ⟨12, _⟩ => ⟨S320000x128, .f32⟩
  | .hbm, ⟨13, _⟩ => ⟨S10000x32x128, .f32⟩
  | .hbm, ⟨14, _⟩ => ⟨S_, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  shapeCasts_S320000x128_S10000x32x128 : S320000x128.ShapeCasts S10000x32x128
  reducesTo_S10000x32x128_S10000x128_d1 : S10000x32x128.ReducesTo [1] S10000x128
  h_S_ : 0 < S_.numel
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S320000x128_S128x128_S320000x128_1_0_0_1_n_n_wf : DotDims.WF S320000x128 S128x128 S320000x128 [1] [0] [0] [1] [] []
  dot_S10000x256_S256x128_S10000x128_1_0_0_1_n_n_wf : DotDims.WF S10000x256 S256x128 S10000x128 [1] [0] [0] [1] [] []

variable [Facts₀]

def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.PoolBody.lean ====
/-
  What the kernel's body leaves in the output's staging buffer at one grid point, as a function of the point's
  input blocks.

  The body first fills a 200-row scratch buffer in five trips of a counted loop: trip `k` loads rows
  `1280 k … 1280 k + 1279` of the point's neighbour block (40 nodes, 32 neighbours each) and stores their 40 pooled rows
  at rows `40 k … 40 k + 39` of the scratch. The five stored blocks tile the scratch, and each is the restriction of
  ONE function of the scratch's index — row `y` holds the pooled row computed from chunk `y / 40` at its local row
  `y % 40` — so the load of the whole scratch that follows the loop reads that function, whatever the scratch held
  before. The body then stores, over the whole output block, the second payload of the source block, that scratch,
  and the second layer's weights and bias.
-/
import proofs.«169337_j68796786147566_2_alg».proof.Proof.KernelIdealFrame
import Idealize.ShloMosaic.Lib.Pipeline.Value
import Idealize.ShloMosaic.Lib.ValueIdx

noncomputable section

namespace Cert.PoolBody

open Idealize.ShloMosaic Idealize.ShloMosaic.ValueIdx Idealize.ShloMosaic.Tactic Idealize.SL.Sem
open Cert.KernelIdeal Cert.KernelIdeal.Gen Cert.KernelIdeal.GenP

variable {F : FTy → Type} [FloatOps F]

/-- The loop makes five trips. -/
theorem trips_eq : k0_t1_loop.trips = 5 := by decide +kernel

/-- The zero offsets of a whole-buffer access, however spelt. -/
theorem zero2 : (![0, 0] : Fin 2 → Nat) = fun _ => 0 := by
  funext a; match a with | ⟨0, _⟩ => rfl | ⟨1, _⟩ => rfl

/-- The 40 pooled rows trip `k` computes: the first payload of rows `1280 k …` of the neighbour block. -/
def chunkPooled (v0 : Vec F S128x128 .bf16) (v2 : Vec F S1x128 .f32) (X1 : Vec F S6400x128 .f32)
    (k : Fin k0_t1_loop.trips) : FVec F S40x128 .f32 :=
  k0_pay1 v0 v2 (View.ld X1 (Rect.unit (k0_off1 k) S1280x128.size (k0_off1_inb k)))

/-- The scratch after the loop, as one function of its index: row `y` is local row `y % 40` of chunk `y / 40`. -/
def scratchFn (v0 : Vec F S128x128 .bf16) (v2 : Vec F S1x128 .f32) (X1 : Vec F S6400x128 .f32) : Vec F S200x128 .f32 :=
  fun y => chunkPooled v0 v2 X1 ⟨(y 0).val / 40, by rw [trips_eq]; have := idx2_lt0 y; omega⟩
    (ix2 (⟨(y 0).val % 40, Nat.mod_lt _ (by decide)⟩ : Fin 40) (⟨(y 1).val, idx2_lt1 y⟩ : Fin 128))

/-- The scratch function at row `p`, feature `d`: chunk `p / 40`, local row `p % 40`. -/
theorem scratchFn_ix2 (v0 : Vec F S128x128 .bf16) (v2 : Vec F S1x128 .f32) (X1 : Vec F S6400x128 .f32) (p : Fin 200) (d : Fin 128) :
    scratchFn v0 v2 X1 (ix2 p d)
      = chunkPooled v0 v2 X1 ⟨p.val / 40, by rw [trips_eq]; have := p.isLt; omega⟩
          (ix2 (⟨p.val % 40, Nat.mod_lt _ (by decide)⟩ : Fin 40) d) := rfl

variable (𝒱 : Variants) (c : Dev nD) (bd : Option 𝒱.V) (i : grid0.Coords)
  (arg1 : Memref sig .tc .vmem S200x128 .f32) (harg1 : arg1.IsWhole) (arg2 : Memref sig .tc .vmem S6400x128 .f32) (harg2 : arg2.IsWhole)
  (arg3 : Memref sig .tc .vmem S128x128 .bf16) (harg3 : arg3.IsWhole) (arg4 : Memref sig .tc .vmem S1x128 .f32) (harg4 : arg4.IsWhole)
  (arg5 : Memref sig .tc .vmem S256x128 .bf16) (harg5 : arg5.IsWhole) (arg6 : Memref sig .tc .vmem S1x128 .f32) (harg6 : arg6.IsWhole)
  (arg7 : Memref sig .tc .vmem S200x128 .f32) (harg7 : arg7.IsWhole) (arg8 : Memref sig .tc .vmem S200x128 .f32) (harg8 : arg8.IsWhole)
  (v0 : Vec F S128x128 .bf16) (v2 : Vec F S1x128 .f32) (X : BufTy.Contents (Elt F) arg2.view.ty)

/-- One trip stores one piece: the block of 40 rows at `40 k`, holding that trip's pooled rows. -/
theorem trip_piece (k : Fin k0_t1_loop.trips) :
    tripL_k0_t1 (F := F) 𝒱 c bd i arg1 harg1 arg2 harg2 arg3 harg3 arg4 harg4 arg5 harg5 arg6 harg6 arg7 harg7 arg8 harg8 v0 v2 X k
      = [⟨Rect.unit (k0_off2 k) S40x128.size (k0_off2_inb k), chunkPooled v0 v2 (arg2.view.read (Elt F) X) k⟩] := by
  unfold tripL_k0_t1 trip_k0_t1 chunkPooled
  rfl

/-- Trip `k`'s block is the scratch function restricted to rows `40 k … 40 k + 39`. -/
theorem chunk_at (X1 : Vec F S6400x128 .f32) (k : Fin k0_t1_loop.trips)
    (x : (Rect.unit (s := S200x128) (k0_off2 k) S40x128.size (k0_off2_inb k)).shape.Idx) :
    chunkPooled v0 v2 X1 k x = scratchFn v0 v2 X1 ((Rect.unit (s := S200x128) (k0_off2 k) S40x128.size (k0_off2_inb k)).emb x) := by
  have hx0 : (x 0).val < 40 := (x 0).isLt
  have h0 : (((Rect.unit (s := S200x128) (k0_off2 k) S40x128.size (k0_off2_inb k)).emb x) 0).val = 40 * k.val + (x 0).val := by
    have e := congrFun (k0_off2_eq k) 0
    show k0_off2 k 0 + 1 * (x 0).val = _
    rw [e]; show 40 * k.val + 1 * (x 0).val = _; omega
  have h1 : (((Rect.unit (s := S200x128) (k0_off2 k) S40x128.size (k0_off2_inb k)).emb x) 1).val = (x 1).val := by
    have e := congrFun (k0_off2_eq k) 1
    show k0_off2 k 1 + 1 * (x 1).val = _
    rw [e]; show 0 + 1 * (x 1).val = _; omega
  unfold scratchFn
  have hc : (⟨(((Rect.unit (s := S200x128) (k0_off2 k) S40x128.size (k0_off2_inb k)).emb x) 0).val / 40,
      by rw [trips_eq]; have := idx2_lt0 ((Rect.unit (s := S200x128) (k0_off2 k) S40x128.size (k0_off2_inb k)).emb x); omega⟩ : Fin k0_t1_loop.trips) = k :=
    Fin.ext (by show (((Rect.unit (s := S200x128) (k0_off2 k) S40x128.size (k0_off2_inb k)).emb x) 0).val / 40 = k.val; rw [h0]; omega)
  have hl : ix2 (⟨(((Rect.unit (s := S200x128) (k0_off2 k) S40x128.size (k0_off2_inb k)).emb x) 0).val % 40, Nat.mod_lt _ (by decide)⟩ : Fin 40)
      (⟨(((Rect.unit (s := S200x128) (k0_off2 k) S40x128.size (k0_off2_inb k)).emb x) 1).val, idx2_lt1 _⟩ : Fin 128) = x :=
    funext fun a => Fin.ext (by
      match a with
      | ⟨0, _⟩ => show (((Rect.unit (s := S200x128) (k0_off2 k) S40x128.size (k0_off2_inb k)).emb x) 0).val % 40 = (x 0).val; rw [h0]; omega
      | ⟨1, _⟩ => exact h1)
  rw [hc, hl]

set_option maxRecDepth 200000 in
/-- Every piece the trips before `n` stored is a block of the scratch function. -/
theorem pb_pieces : ∀ n : Nat, n ≤ k0_t1_loop.trips →
    ∀ p ∈ pb_k0_t1 (F := F) 𝒱 c bd i arg1 harg1 arg2 harg2 arg3 harg3 arg4 harg4 arg5 harg5 arg6 harg6 arg7 harg7 arg8 harg8 v0 v2 X n,
      ∀ x : p.1.shape.Idx, p.2 x = scratchFn v0 v2 (arg2.view.read (Elt F) X) (p.1.emb x)
  | 0, _ => by
    intro p hp; rw [pb_k0_t1.eq_1] at hp; exact absurd hp List.not_mem_nil
  | n + 1, hn => by
    intro p hp x
    have e : pb_k0_t1 (F := F) 𝒱 c bd i arg1 harg1 arg2 harg2 arg3 harg3 arg4 harg4 arg5 harg5 arg6 harg6 arg7 harg7 arg8 harg8 v0 v2 X (n + 1)
        = tripL_k0_t1 (F := F) 𝒱 c bd i arg1 harg1 arg2 harg2 arg3 harg3 arg4 harg4 arg5 harg5 arg6 harg6 arg7 harg7 arg8 harg8 v0 v2 X ⟨n, hn⟩
          ++ pb_k0_t1 (F := F) 𝒱 c bd i arg1 harg1 arg2 harg2 arg3 harg3 arg4 harg4 arg5 harg5 arg6 harg6 arg7 harg7 arg8 harg8 v0 v2 X n :=
      pb_k0_t1_succ (F := F) 𝒱 c bd i arg1 harg1 arg2 harg2 arg3 harg3 arg4 harg4 arg5 harg5 arg6 harg6 arg7 harg7 arg8 harg8 v0 v2 X ⟨n, hn⟩
    rw [e] at hp
    rcases List.mem_append.mp hp with h | h
    · rw [trip_piece] at h
      obtain rfl := List.mem_singleton.mp h
      exact chunk_at v0 v2 _ ⟨n, hn⟩ x
    · exact pb_pieces n (Nat.le_of_succ_le hn) p h x

/-- The load of the whole scratch after the loop reads the scratch function: the five blocks tile the buffer and each
    restricts that function. -/
theorem scratch_read :
    arg8.view.readCov (pb_k0_t1 (F := F) 𝒱 c bd i arg1 harg1 arg2 harg2 arg3 harg3 arg4 harg4 arg5 harg5 arg6 harg6 arg7 harg7 arg8 harg8 v0 v2 X
        (Scf.trips k0_t1_loop.lb k0_t1_loop.ub k0_t1_loop.st))
      (Rect.unit ![0, 0] S200x128.size inb_S200x128_S200x128_0_0).toLoadRect
      = scratchFn v0 v2 (arg2.view.read (Elt F) X) := by
  rw [View.readCov_eq_canon']
  show View.ld (View.canon _) (Rect.unit ![0, 0] S200x128.size inb_S200x128_S200x128_0_0) = _
  rw [View.ld_unit_zero zero2]
  funext y
  exact View.canon_apply_of_pieces _ _ (pb_pieces 𝒱 c bd i arg1 harg1 arg2 harg2 arg3 harg3 arg4 harg4 arg5 harg5 arg6 harg6 arg7 harg7 arg8 harg8 v0 v2 X _ (le_refl _)) y
    (View.cover_of_tiledL (s := S200x128) _ ![40, 128] (by sl_kernel_rfl) y)

/-- WHAT THE BODY LEAVES in the output's staging buffer: the second payload of the source block, the scratch function
    of the neighbour block and the first layer's weights and bias, and the second layer's weights and bias. -/
theorem out_eq (x0 : Vec F S200x128 .f32) (x1 : Vec F S6400x128 .f32) (x2 : Vec F S128x128 .bf16) (x3 : Vec F S1x128 .f32)
    (x4 : Vec F S256x128 .bf16) (x5 : Vec F S1x128 .f32) :
    out0_A_6 (F := F) c i arg1 harg1 arg2 harg2 arg3 harg3 arg4 harg4 arg5 harg5 arg6 harg6 arg7 harg7 arg8 harg8 x0 x1 x2 x3 x4 x5
      = k0_pay2 x0 (scratchFn x2 x3 x1) x4 x5 := by
  unfold out0_A_6
  rw [View.read_writes_junk_eq_canon]
  unfold kernelRun0_A
  dsimp only
  rw [View.canon_unit_zero zero2, scratch_read]
  simp only [View.readAt_eq_ld, Memref.IsWhole.read_unread, View.ld_unit_zero (S := S200x128) zero2,
    View.ld_unit_zero (S := S128x128) zero2, View.ld_unit_zero (S := S1x128) zero2, View.ld_unit_zero (S := S256x128) zero2]

end Cert.PoolBody

end
-- ==== Proof.PoolSpec.lean ====
/-
  The mathematics of the pooling layer, one node at a time, over the extended reals.

  A node has one source row (128 features) and 32 neighbour rows (128 features each). Every neighbour row goes
  through a dense layer and a rectifier, `max (row · W_pool + b_pool) 0`; the node's pooled row is the
  feature-wise maximum of those 32 results, folded from -∞; the source row and the pooled row are joined into
  256 features and go through a second dense layer and rectifier, `max ([src, pooled] · W + b) 0`.
  `nodeOut` is that function of the rows and the weights; `G` reads it off whole arrays in which node `n`'s
  neighbours are rows `32 n … 32 n + 31`. Both programs compute `G`: the reference on whole arrays, the kernel
  200 nodes per grid point and, inside a point, 40 nodes per loop trip.
-/
import Idealize.ShloMosaic.PureOps.Ideal
import Idealize.ShloMosaic.Lib.ValueIdx

noncomputable section

namespace Cert.PoolSpec

open Idealize.ShloMosaic Idealize.ShloMosaic.ValueIdx

/-- The two float words both programs print: zero (the rectifier's floor) and -∞ (the maximum's start). -/
abbrev zeroW : EReal := Ideal.ofBits .f32 0x00000000#32
abbrev negInfW : EReal := Ideal.ofBits .f32 0xFF800000#32

/-- One neighbour row through the first dense layer and the rectifier, at output feature `d`. -/
def nodeHidden (row : Fin 128 → EReal) (wp : (⟨2, ![128, 128]⟩ : Shape).Idx → EReal) (bp : Fin 128 → EReal)
    (d : Fin 128) : EReal :=
  max ((∑ e : Fin 128, row e * wp (ix2 e d)) + bp d) zeroW

/-- The feature-wise maximum over a node's 32 neighbours, from -∞. -/
def nodePooled (rows : Fin 32 → Fin 128 → EReal) (wp : (⟨2, ![128, 128]⟩ : Shape).Idx → EReal) (bp : Fin 128 → EReal)
    (d : Fin 128) : EReal :=
  (Finset.univ : Finset (Fin 32)).fold max negInfW (fun k => nodeHidden (rows k) wp bp d)

/-- The source row followed by the pooled row: 256 features. -/
def nodeCat (srow prow : Fin 128 → EReal) (e : Fin 256) : EReal :=
  if h : e.val < 128 then srow ⟨e.val, h⟩ else prow ⟨e.val - 128, by have := e.isLt; omega⟩

/-- The joined row through the second dense layer and the rectifier, at output feature `o`. -/
def nodeFinal (srow prow : Fin 128 → EReal) (w : (⟨2, ![256, 128]⟩ : Shape).Idx → EReal) (b : Fin 128 → EReal)
    (o : Fin 128) : EReal :=
  max ((∑ e : Fin 256, nodeCat srow prow e * w (ix2 e o)) + b o) zeroW

/-- A node's output row: the whole layer. -/
def nodeOut (srow : Fin 128 → EReal) (rows : Fin 32 → Fin 128 → EReal) (wp : (⟨2, ![128, 128]⟩ : Shape).Idx → EReal)
    (bp : Fin 128 → EReal) (w : (⟨2, ![256, 128]⟩ : Shape).Idx → EReal) (b : Fin 128 → EReal) (o : Fin 128) : EReal :=
  nodeFinal srow (nodePooled rows wp bp) w b o

/-- Neighbour `k` of node `n` is row `32 n + k` of the neighbour array, whatever the number of nodes. -/
def nrow {N : Nat} (n : Fin N) (k : Fin 32) : Fin (N * 32) :=
  ⟨n.val * 32 + k.val, by have := n.isLt; have := k.isLt; nlinarith⟩

/-- The layer on whole arrays: 10000 nodes, 320000 neighbour rows. -/
def G (src : (⟨2, ![10000, 128]⟩ : Shape).Idx → EReal) (nb : (⟨2, ![320000, 128]⟩ : Shape).Idx → EReal)
    (wp : (⟨2, ![128, 128]⟩ : Shape).Idx → EReal) (bp : (⟨1, ![128]⟩ : Shape).Idx → EReal)
    (w : (⟨2, ![256, 128]⟩ : Shape).Idx → EReal) (b : (⟨1, ![128]⟩ : Shape).Idx → EReal) :
    (⟨2, ![10000, 128]⟩ : Shape).Idx → EReal :=
  fun i => nodeOut (fun e => src (ix2 (i 0) e))
    (fun k e => nb (ix2 (⟨(i 0).val * 32 + k.val, by have := idx2_lt0 i; have := k.isLt; omega⟩ : Fin 320000) e))
    wp (fun d => bp (ix1 d)) w (fun o => b (ix1 o)) (i 1)

theorem G_apply (src : (⟨2, ![10000, 128]⟩ : Shape).Idx → EReal) (nb : (⟨2, ![320000, 128]⟩ : Shape).Idx → EReal)
    (wp : (⟨2, ![128, 128]⟩ : Shape).Idx → EReal) (bp : (⟨1, ![128]⟩ : Shape).Idx → EReal)
    (w : (⟨2, ![256, 128]⟩ : Shape).Idx → EReal) (b : (⟨1, ![128]⟩ : Shape).Idx → EReal) (n : Fin 10000) (o : Fin 128) :
    G src nb wp bp w b (ix2 n o) = nodeOut (fun e => src (ix2 n e))
      (fun k e => nb (ix2 (⟨n.val * 32 + k.val, by have := n.isLt; have := k.isLt; omega⟩ : Fin 320000) e))
      wp (fun d => bp (ix1 d)) w (fun o => b (ix1 o)) o := rfl

end Cert.PoolSpec

end
-- ==== Proof.PoolPayload.lean ====
/-
  The kernel body's two payloads read at an index, over the extended reals.

  The first payload takes a chunk of 1280 neighbour rows (40 nodes, 32 neighbours each), sends every row through the
  first dense layer and the rectifier, regroups the 1280 rows row-major as 40 groups of 32, and takes the feature-wise
  maximum of each group from -∞: at (p, d) it is the pooled row of the node whose neighbours are rows 32 p … 32 p + 31.
  The second payload joins a block of 200 source rows with the 200 pooled rows and sends each joined row through the
  second dense layer and the rectifier: at (p, o) it is the final row of node p.
-/
import proofs.«169337_j68796786147566_2_alg».proof.Proof.Gen.KernelIdeal.Skeleton
import proofs.«169337_j68796786147566_2_alg».proof.Proof.PoolSpec
import Idealize.ShloMosaic.PureOps.Ideal.Laws
import Idealize.ShloMosaic.Lib.ValueIdx
import Idealize.ShloMosaic.Lib.Pipeline.Value
import Idealize.ShloMosaic.Lib.ValueLayout

noncomputable section

namespace Cert.PoolPayload

open Idealize.ShloMosaic Idealize.ShloMosaic.ValueIdx Cert.KernelIdeal Cert.KernelIdeal.Gen

/-! ## The two matrix products at an index -/

/-- The first product's left index keeps the result's row … -/
theorem mm1_lhs0 (j : S1280x128.Idx) (q : dot_S1280x128_S128x128_S1280x128_1_0_0_1_n_n.contr.Idx) : (dot_S1280x128_S128x128_S1280x128_1_0_0_1_n_n.lhsIdx j q 0).val = (j 0).val := by
  unfold DotDims.lhsIdx
  rw [dif_neg (show ¬(0 : Fin S1280x128.rank) ∈ dot_S1280x128_S128x128_S1280x128_1_0_0_1_n_n.lhsBatch by decide),
    dif_pos (show (0 : Fin S1280x128.rank) ∈ dot_S1280x128_S128x128_S1280x128_1_0_0_1_n_n.lhsNonContracting by decide)]
  rfl
/-- … and runs along the contraction on its second axis. -/
theorem mm1_lhs1 (j : S1280x128.Idx) (q : dot_S1280x128_S128x128_S1280x128_1_0_0_1_n_n.contr.Idx) : (dot_S1280x128_S128x128_S1280x128_1_0_0_1_n_n.lhsIdx j q 1).val = (q ⟨0, by decide⟩).val :=
  dot_S1280x128_S128x128_S1280x128_1_0_0_1_n_n.lhsIdx_val_of_single rfl j q
/-- The first product's right index runs along the contraction on its first axis … -/
theorem mm1_rhs0 (j : S1280x128.Idx) (q : dot_S1280x128_S128x128_S1280x128_1_0_0_1_n_n.contr.Idx) : (dot_S1280x128_S128x128_S1280x128_1_0_0_1_n_n.rhsIdx j q 0).val = (q ⟨0, by decide⟩).val :=
  dot_S1280x128_S128x128_S1280x128_1_0_0_1_n_n.rhsIdx_val_of_single rfl j q
/-- … and keeps the result's column. -/
theorem mm1_rhs1 (j : S1280x128.Idx) (q : dot_S1280x128_S128x128_S1280x128_1_0_0_1_n_n.contr.Idx) : (dot_S1280x128_S128x128_S1280x128_1_0_0_1_n_n.rhsIdx j q 1).val = (j 1).val := by
  unfold DotDims.rhsIdx
  rw [dif_neg (show ¬(1 : Fin S128x128.rank) ∈ dot_S1280x128_S128x128_S1280x128_1_0_0_1_n_n.rhsBatch by decide),
    dif_pos (show (1 : Fin S128x128.rank) ∈ dot_S1280x128_S128x128_S1280x128_1_0_0_1_n_n.rhsNonContracting by decide)]
  rfl

/-- The first product from a zero accumulator, at (r, c): the sum over the 128 contracted features of row r of the left
    operand times column c of the right one. -/
theorem mm1_apply (x : FVec Ideal S1280x128 .bf16) (w : FVec Ideal S128x128 .bf16) (r : Fin 1280) (c : Fin 128) :
    matmul dot_S1280x128_S128x128_S1280x128_1_0_0_1_n_n none x w (constant (F := Ideal) S1280x128 .f32 0x00000000#32) (ix2 r c)
      = ∑ e : Fin 128, x (ix2 r e) * w (ix2 e c) := by
  refine (Ideal.matmul_constant_zero_apply dot_S1280x128_S128x128_S1280x128_1_0_0_1_n_n none x w (ix2 r c)).trans ?_
  rw [← Equiv.sum_comp (contrEquiv1 dot_S1280x128_S128x128_S1280x128_1_0_0_1_n_n 128 rfl rfl).symm]
  refine Finset.sum_congr rfl fun k _ => ?_
  have hk := contrEquiv1_symm_val dot_S1280x128_S128x128_S1280x128_1_0_0_1_n_n 128 rfl rfl k
  have el : dot_S1280x128_S128x128_S1280x128_1_0_0_1_n_n.lhsIdx (ix2 r c) ((contrEquiv1 dot_S1280x128_S128x128_S1280x128_1_0_0_1_n_n 128 rfl rfl).symm k) = ix2 r k := funext fun a => Fin.ext (by
    match a with
    | ⟨0, _⟩ => exact mm1_lhs0 _ _
    | ⟨1, _⟩ => exact (mm1_lhs1 _ _).trans hk)
  have er : dot_S1280x128_S128x128_S1280x128_1_0_0_1_n_n.rhsIdx (ix2 r c) ((contrEquiv1 dot_S1280x128_S128x128_S1280x128_1_0_0_1_n_n 128 rfl rfl).symm k) = ix2 k c := funext fun a => Fin.ext (by
    match a with
    | ⟨0, _⟩ => exact (mm1_rhs0 _ _).trans hk
    | ⟨1, _⟩ => exact mm1_rhs1 _ _)
  rw [el, er]

/-- The second product's left index keeps the result's row … -/
theorem mm2_lhs0 (j : S200x128.Idx) (q : dot_S200x256_S256x128_S200x128_1_0_0_1_n_n.contr.Idx) : (dot_S200x256_S256x128_S200x128_1_0_0_1_n_n.lhsIdx j q 0).val = (j 0).val := by
  unfold DotDims.lhsIdx
  rw [dif_neg (show ¬(0 : Fin S200x256.rank) ∈ dot_S200x256_S256x128_S200x128_1_0_0_1_n_n.lhsBatch by decide),
    dif_pos (show (0 : Fin S200x256.rank) ∈ dot_S200x256_S256x128_S200x128_1_0_0_1_n_n.lhsNonContracting by decide)]
  rfl
/-- … and runs along the contraction on its second axis. -/
theorem mm2_lhs1 (j : S200x128.Idx) (q : dot_S200x256_S256x128_S200x128_1_0_0_1_n_n.contr.Idx) : (dot_S200x256_S256x128_S200x128_1_0_0_1_n_n.lhsIdx j q 1).val = (q ⟨0, by decide⟩).val :=
  dot_S200x256_S256x128_S200x128_1_0_0_1_n_n.lhsIdx_val_of_single rfl j q
/-- The second product's right index runs along the contraction on its first axis … -/
theorem mm2_rhs0 (j : S200x128.Idx) (q : dot_S200x256_S256x128_S200x128_1_0_0_1_n_n.contr.Idx) : (dot_S200x256_S256x128_S200x128_1_0_0_1_n_n.rhsIdx j q 0).val = (q ⟨0, by decide⟩).val :=
  dot_S200x256_S256x128_S200x128_1_0_0_1_n_n.rhsIdx_val_of_single rfl j q
/-- … and keeps the result's column. -/
theorem mm2_rhs1 (j : S200x128.Idx) (q : dot_S200x256_S256x128_S200x128_1_0_0_1_n_n.contr.Idx) : (dot_S200x256_S256x128_S200x128_1_0_0_1_n_n.rhsIdx j q 1).val = (j 1).val := by
  unfold DotDims.rhsIdx
  rw [dif_neg (show ¬(1 : Fin S256x128.rank) ∈ dot_S200x256_S256x128_S200x128_1_0_0_1_n_n.rhsBatch by decide),
    dif_pos (show (1 : Fin S256x128.rank) ∈ dot_S200x256_S256x128_S200x128_1_0_0_1_n_n.rhsNonContracting by decide)]
  rfl

/-- The second product from a zero accumulator, at (r, c): the sum over the 256 contracted features of row r of the left
    operand times column c of the right one. -/
theorem mm2_apply (x : FVec Ideal S200x256 .bf16) (w : FVec Ideal S256x128 .bf16) (r : Fin 200) (c : Fin 128) :
    matmul dot_S200x256_S256x128_S200x128_1_0_0_1_n_n none x w (constant (F := Ideal) S200x128 .f32 0x00000000#32) (ix2 r c)
      = ∑ e : Fin 256, x (ix2 r e) * w (ix2 e c) := by
  refine (Ideal.matmul_constant_zero_apply dot_S200x256_S256x128_S200x128_1_0_0_1_n_n none x w (ix2 r c)).trans ?_
  rw [← Equiv.sum_comp (contrEquiv1 dot_S200x256_S256x128_S200x128_1_0_0_1_n_n 256 rfl rfl).symm]
  refine Finset.sum_congr rfl fun k _ => ?_
  have hk := contrEquiv1_symm_val dot_S200x256_S256x128_S200x128_1_0_0_1_n_n 256 rfl rfl k
  have el : dot_S200x256_S256x128_S200x128_1_0_0_1_n_n.lhsIdx (ix2 r c) ((contrEquiv1 dot_S200x256_S256x128_S200x128_1_0_0_1_n_n 256 rfl rfl).symm k) = ix2 r k := funext fun a => Fin.ext (by
    match a with
    | ⟨0, _⟩ => exact mm2_lhs0 _ _
    | ⟨1, _⟩ => exact (mm2_lhs1 _ _).trans hk)
  have er : dot_S200x256_S256x128_S200x128_1_0_0_1_n_n.rhsIdx (ix2 r c) ((contrEquiv1 dot_S200x256_S256x128_S200x128_1_0_0_1_n_n 256 rfl rfl).symm k) = ix2 k c := funext fun a => Fin.ext (by
    match a with
    | ⟨0, _⟩ => exact (mm2_rhs0 _ _).trans hk
    | ⟨1, _⟩ => exact mm2_rhs1 _ _)
  rw [el, er]

/-! ## The layout operations and the reduction at an index -/

/-- Regrouping 1280 rows as 40 groups of 32 is row-major: entry (p, k, d) of the regrouped array is entry (32 p + k, d). -/
theorem regroup_apply (y : S1280x128.Idx → EReal) (h : S1280x128.ShapeCasts S40x32x128) (p : Fin 40) (k : Fin 32) (d : Fin 128) :
    shapeCast S40x32x128 y h (ix3 p k d)
      = y (ix2 (⟨p.val * 32 + k.val, by have := p.isLt; have := k.isLt; omega⟩ : Fin 1280) d) := by
  refine shapeCast_apply y h (ix3 p k d) _ ?_
  rw [Shape.rowMajor_val_two, Shape.rowMajor_val_three]
  rfl

/-- The reduced index (p, d) with the neighbour's number k put back on the middle axis is (p, k, d). -/
theorem lift_ix3 (h : S40x32x128.Reduces [1] S40x128) (p : Fin 40) (d : Fin 128) (k : Fin (S40x32x128.size 1)) :
    h.lift (ix2 p d) k = ix3 p (⟨k.val, k.isLt⟩ : Fin 32) d := by
  funext c; apply Fin.ext
  fin_cases c <;> rfl

/-- The maximum over the middle axis from -∞, at (p, d): the fold of max over the 32 entries (p, k, d). -/
theorem pool_apply (src : FVec Ideal S40x32x128 .f32) (h : S40x32x128.Reduces [1] S40x128) (hφ : FKind.Formats .f32)
    (hacc : (0xFF800000#32 : BitVec (FTy.bits .f32)) = FKind.maximumf.neutral .f32 hφ) (p : Fin 40) (d : Fin 128) :
    multiReduction (F := Ideal) .maximumf [1] S40x128 src 0xFF800000#32 h hφ hacc (ix2 p d)
      = (Finset.univ : Finset (Fin 32)).fold max (Ideal.ofBits .f32 0xFF800000#32) (fun k => src (ix3 p k d)) := by
  refine (Ideal.multiReduction_maximumf_single src 0xFF800000#32 h hφ hacc (ix2 p d)).trans ?_
  have hf : (src ∘ h.lift (ix2 p d)) = fun k : Fin 32 => src (ix3 p k d) := funext fun k => congrArg src (lift_ix3 h p d k)
  exact congrArg (fun f => Finset.fold max (Ideal.ofBits .f32 0xFF800000#32) f (Finset.univ : Finset (Fin 32))) hf

/-- Two blocks of 200 rows of 128 features joined along the features, at (p, e): the first block's row p below feature 128,
    the second block's row p from there on. -/
theorem join_apply (x y : S200x128.Idx → EReal) (h : Shape.Concatenates [S200x128, S200x128] S200x256 1) (p : Fin 200) (e : Fin 256) :
    concatenate S200x256 1 [⟨S200x128, x⟩, ⟨S200x128, y⟩] h (ix2 p e)
      = Cert.PoolSpec.nodeCat (fun e' => x (ix2 p e')) (fun e' => y (ix2 p e')) e := by
  unfold Cert.PoolSpec.nodeCat
  by_cases he : e.val < 128
  · rw [dif_pos he]
    exact concatenate_pair_apply_left 1 x y h (ix2 p e) rfl (ix2 p (⟨e.val, he⟩ : Fin 128)) (fun b => by
      match b with
      | ⟨0, _⟩ => rfl
      | ⟨1, _⟩ => rfl)
  · rw [dif_neg he]
    exact concatenate_pair_apply_right 1 x y h (ix2 p e) rfl rfl
      (ix2 p (⟨e.val - 128, by have := e.isLt; omega⟩ : Fin 128)) (fun b hb => by
        match b with
        | ⟨0, _⟩ => rfl
        | ⟨1, _⟩ => exact absurd rfl hb) (by show e.val - 128 + 128 = e.val; omega)

/-! ## The two payloads at an index -/

/-- The first payload at (p, d): the pooled row of the node whose 32 neighbours are rows 32 p … 32 p + 31 of the chunk. -/
theorem pay1_apply (v0 : Vec Ideal S128x128 .bf16) (v2 : Vec Ideal S1x128 .f32) (v24 : Vec Ideal S1280x128 .f32) (p : Fin 40) (d : Fin 128) :
    k0_pay1 (F := Ideal) v0 v2 v24 (ix2 p d)
      = Cert.PoolSpec.nodePooled (fun k e => v24 (ix2 (⟨p.val * 32 + k.val, by have := p.isLt; have := k.isLt; omega⟩ : Fin 1280) e))
          v0 (fun d' => v2 (ix2 (0 : Fin 1) d')) d := by
  unfold k0_pay1 Cert.PoolSpec.nodePooled
  dsimp only
  rw [shapeCast_self]
  refine (pool_apply _ _ _ _ p d).trans ?_
  refine congrArg (fun f => Finset.fold max (Ideal.ofBits .f32 0xFF800000#32) f (Finset.univ : Finset (Fin 32))) (funext fun k => ?_)
  rw [regroup_apply]
  unfold Cert.PoolSpec.nodeHidden
  rw [maximumf_apply, addf_apply, mm1_apply, broadcastTo_1b_ab_apply, shapeCast_self, shapeCast_self]
  rfl

/-- The second payload at (p, o): the final row of node p, from its source row and its pooled row. -/
theorem pay2_apply (v5 v6 : Vec Ideal S200x128 .f32) (v9 : Vec Ideal S256x128 .bf16) (v12 : Vec Ideal S1x128 .f32) (p : Fin 200) (o : Fin 128) :
    k0_pay2 (F := Ideal) v5 v6 v9 v12 (ix2 p o)
      = Cert.PoolSpec.nodeFinal (fun e => v5 (ix2 p e)) (fun e => v6 (ix2 p e)) v9 (fun o' => v12 (ix2 (0 : Fin 1) o')) o := by
  unfold k0_pay2 Cert.PoolSpec.nodeFinal
  dsimp only
  rw [maximumf_apply, addf_apply, mm2_apply, broadcastTo_1b_ab_apply, shapeCast_self, shapeCast_self]
  refine congrArg (fun s => max (s + v12 (ix2 (0 : Fin 1) o)) Cert.PoolSpec.zeroW) (Finset.sum_congr rfl fun e _ => ?_)
  rw [truncf_apply, join_apply]

end Cert.PoolPayload

end
-- ==== Proof.PoolPoint.lean ====
/-
  One grid point of the kernel is the layer on the point's 200 nodes.

  Over the extended reals, what the body stores at row `p`, feature `o` of the output block is the layer's output
  for the node whose source row is row `p` of the source block and whose 32 neighbours are rows `32 p … 32 p + 31` of
  the neighbour block: the scratch row `p` is that node's pooled row (chunk `p / 40` of the neighbour block starts at
  row `1280 (p / 40)`, and `1280 (p / 40) + 32 (p % 40) + k = 32 p + k`), and the second payload joins it with the
  source row and applies the second dense layer and the rectifier.
-/
import proofs.«169337_j68796786147566_2_alg».proof.Proof.PoolBody
import proofs.«169337_j68796786147566_2_alg».proof.Proof.PoolPayload
import proofs.«169337_j68796786147566_2_alg».proof.Proof.PoolSpec

noncomputable section

namespace Cert.PoolPoint

open Idealize.ShloMosaic Idealize.ShloMosaic.ValueIdx Idealize.SL.Sem
open Cert.KernelIdeal Cert.KernelIdeal.Gen Cert.PoolBody Cert.PoolPayload Cert.PoolSpec

/-- Row `r` of trip `k`'s chunk is row `1280 k + r` of the neighbour block. -/
theorem chunk_rows (x1 : Vec Ideal S6400x128 .f32) (k : Fin k0_t1_loop.trips) (r : Fin 1280) (e : Fin 128) :
    View.ld x1 (Rect.unit (k0_off1 k) S1280x128.size (k0_off1_inb k)) (ix2 r e)
      = x1 (ix2 (⟨1280 * k.val + r.val, by have hk : k.val < 5 := lt_of_lt_of_eq k.isLt trips_eq; have := r.isLt; omega⟩ : Fin 6400) e) := by
  refine congrArg x1 (funext fun a => Fin.ext ?_)
  match a with
  | ⟨0, _⟩ =>
    show k0_off1 k 0 + 1 * r.val = 1280 * k.val + r.val
    rw [congrFun (k0_off1_eq k) 0]; show 1280 * k.val + 1 * r.val = _; omega
  | ⟨1, _⟩ =>
    show k0_off1 k 1 + 1 * e.val = e.val
    rw [congrFun (k0_off1_eq k) 1]; show 0 + 1 * e.val = _; omega

/-- Row `p` of the scratch is the pooled row of the node whose neighbours are rows `32 p …` of the neighbour block. -/
theorem scratch_at (x1 : Vec Ideal S6400x128 .f32) (x2 : Vec Ideal S128x128 .bf16) (x3 : Vec Ideal S1x128 .f32)
    (p : Fin 200) (d : Fin 128) :
    scratchFn (F := Ideal) x2 x3 x1 (ix2 p d)
      = nodePooled (fun k e => x1 (ix2 (⟨p.val * 32 + k.val, by have := p.isLt; have := k.isLt; omega⟩ : Fin 6400) e))
          x2 (fun d' => x3 (ix2 (0 : Fin 1) d')) d := by
  rw [scratchFn_ix2]
  unfold chunkPooled
  refine (pay1_apply x2 x3 _ (⟨p.val % 40, Nat.mod_lt _ (by decide)⟩ : Fin 40) d).trans ?_
  refine congrArg (fun rows => nodePooled rows x2 (fun d' => x3 (ix2 (0 : Fin 1) d')) d) (funext fun k => funext fun e => ?_)
  refine (chunk_rows x1 _ _ e).trans ?_
  refine congrArg x1 (congrArg (fun r => ix2 r e) (Fin.ext ?_))
  show 1280 * (p.val / 40) + (p.val % 40 * 32 + k.val) = p.val * 32 + k.val
  omega

/-- THE POINT'S VALUE: the stored block at (p, o) is the layer's output for node `p` of the point. -/
theorem point_value (x0 : Vec Ideal S200x128 .f32) (x1 : Vec Ideal S6400x128 .f32) (x2 : Vec Ideal S128x128 .bf16)
    (x3 : Vec Ideal S1x128 .f32) (x4 : Vec Ideal S256x128 .bf16) (x5 : Vec Ideal S1x128 .f32) (p : Fin 200) (o : Fin 128) :
    k0_pay2 (F := Ideal) x0 (scratchFn x2 x3 x1) x4 x5 (ix2 p o)
      = nodeOut (fun e => x0 (ix2 p e))
          (fun k e => x1 (ix2 (⟨p.val * 32 + k.val, by have := p.isLt; have := k.isLt; omega⟩ : Fin 6400) e))
          x2 (fun d => x3 (ix2 (0 : Fin 1) d)) x4 (fun o' => x5 (ix2 (0 : Fin 1) o')) o := by
  refine (pay2_apply x0 (scratchFn x2 x3 x1) x4 x5 p o).trans ?_
  unfold nodeOut
  exact congrArg (fun prow => nodeFinal (fun e => x0 (ix2 p e)) prow x4 (fun o' => x5 (ix2 (0 : Fin 1) o')) o)
    (funext fun d => scratch_at x1 x2 x3 p d)

end Cert.PoolPoint

end
-- ==== Proof.PoolArray.lean ====
/-
  From grid points to the whole output array.

  The grid has 50 points; point `t` sees rows `200 t … 200 t + 199` of the source array, rows `6400 t … 6400 t + 6399` of
  the neighbour array (so node `200 t + p`'s neighbours `32 (200 t + p) + k` are rows `32 p + k` of the block), and the
  whole of the four parameter arrays, which the program prepared before the launch: the two weight matrices converted to
  a narrower float format (the identity on extended reals) and the two bias vectors viewed as one-row matrices. So what
  point `t` writes back is block `t` of the layer `G` of the argument arrays; the 50 blocks tile the output, which
  therefore ends holding `G`.
-/
import proofs.«169337_j68796786147566_2_alg».proof.Proof.KernelIdealValue
import proofs.«169337_j68796786147566_2_alg».proof.Proof.PoolPoint
import Idealize.ShloMosaic.Lib.StableHlo.Run
import Idealize.ShloMosaic.Lib.ValueLayout

noncomputable section

namespace Cert.PoolArray

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.GenP Cert.KernelIdeal.ValueP
open Cert.PoolSpec Cert.PoolBody Cert.PoolPoint

variable (m : (ℓ : Loc nD τ sig) → Buf (Elt Ideal) ℓ) (ρ : Dev nD → PrngReg)

/-- The layer of the argument arrays as launched, on core `c`. -/
def Gm (c : Dev nD) : S10000x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A grid point's number is below 50. -/
theorem t_lt (t : Fin cfg0.N) : t.val < 50 := lt_of_lt_of_eq t.isLt N_0

/-- The printed index maps, decided over the 50 points: the source, neighbour and output windows move one block per
    point along the rows; the four parameter windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the program prepared before the launch -/

/-- The first layer's weights in the narrower format are the weights. -/
theorem V_v0 (c : Dev nD) (i : S128x128.Idx) : V m c main_v0 i = m ((c : Thread nD τ).loc main_arg2) i := by
  have e : (V m c main_v0 : S128x128.Idx → EReal) = fun i => m ((c : Thread nD τ).loc main_arg2) i := by
    dsimp only [V, hostOps0]; after_results; rfl
  rw [e]

/-- The second layer's weights in the narrower format are the weights. -/
theorem V_v1 (c : Dev nD) (i : S256x128.Idx) : V m c main_v1 i = m ((c : Thread nD τ).loc main_arg4) i := by
  have e : (V m c main_v1 : S256x128.Idx → EReal) = fun i => m ((c : Thread nD τ).loc main_arg4) i := by
    dsimp only [V, hostOps0]; after_results; rfl
  rw [e]

/-- The first bias as a one-row matrix: entry (0, d) is entry d. -/
theorem V_v2 (c : Dev nD) (d : Fin 128) :
    V m c main_v2 (ix2 (0 : Fin 1) d) = m ((c : Thread nD τ).loc main_arg3) (ix1 d) := by
  have e : (V m c main_v2 : S1x128.Idx → EReal)
      = shapeCast S1x128 (m ((c : Thread nD τ).loc main_arg3)) Facts₀.shapeCasts_S128_S1x128 := by
    dsimp only [V, hostOps0]; after_results; rfl
  rw [e]; exact shapeCast_a_1a_apply _ _ 0 d

/-- The second bias as a one-row matrix: entry (0, o) is entry o. -/
theorem V_v3 (c : Dev nD) (o : Fin 128) :
    V m c main_v3 (ix2 (0 : Fin 1) o) = m ((c : Thread nD τ).loc main_arg5) (ix1 o) := by
  have e : (V m c main_v3 : S1x128.Idx → EReal)
      = shapeCast S1x128 (m ((c : Thread nD τ).loc main_arg5)) Facts₀.shapeCasts_S128_S1x128 := by
    dsimp only [V, hostOps0]; after_results; rfl
  rw [e]; exact shapeCast_a_1a_apply _ _ 0 o

/-! ## The blocks a point sees -/

/-- Row `p` of point `t`'s source block is row `200 t + p` of the source array. -/
theorem blk0_read (c : Dev nD) (t : Fin cfg0.N) (p : Fin 200) (e : Fin 128) :
    iblk m c 0 t (ix2 p e)
      = m ((c : Thread nD τ).loc main_arg0) (ix2 (⟨200 * t.val + p.val, by have := t_lt t; have := p.isLt; omega⟩ : Fin 10000) e) := by
  rw [← V_main_arg0 m c]
  show V m c main_arg0 (((cfg0.win 0).blk t).view.emb (ix2 p e)) = V m c main_arg0 _
  refine congrArg (V m c main_arg0) (funext fun a => Fin.ext ?_)
  obtain ⟨h0, h1, -⟩ := idx_facts t
  match a with
  | ⟨0, _⟩ => show win0_0.index t (0 : Fin 2) * 200 + 1 * p.val = 200 * t.val + p.val; rw [h0]; omega
  | ⟨1, _⟩ => show win0_0.index t (1 : Fin 2) * 128 + 1 * e.val = e.val; rw [h1]; omega

/-- Row `r` of point `t`'s neighbour block is row `6400 t + r` of the neighbour array. -/
theorem blk1_read (c : Dev nD) (t : Fin cfg0.N) (r : Fin 6400) (e : Fin 128) :
    iblk m c 1 t (ix2 r e)
      = m ((c : Thread nD τ).loc main_arg1) (ix2 (⟨6400 * t.val + r.val, by have := t_lt t; have := r.isLt; omega⟩ : Fin 320000) e) := by
  rw [← V_main_arg1 m c]
  show V m c main_arg1 (((cfg0.win 1).blk t).view.emb (ix2 r e)) = V m c main_arg1 _
  refine congrArg (V m c main_arg1) (funext fun a => Fin.ext ?_)
  obtain ⟨-, -, h0, h1, -⟩ := idx_facts t
  match a with
  | ⟨0, _⟩ => show win0_1.index t (0 : Fin 2) * 6400 + 1 * r.val = 6400 * t.val + r.val; rw [h0]; omega
  | ⟨1, _⟩ => show win0_1.index t (1 : Fin 2) * 128 + 1 * e.val = e.val; rw [h1]; omega

/-- Every point sees the whole of the first layer's weights. -/
theorem blk2_read (c : Dev nD) (t : Fin cfg0.N) (y : S128x128.Idx) :
    iblk m c 2 t y = m ((c : Thread nD τ).loc main_arg2) y := by
  rw [← V_v0 m c y]
  show V m c main_v0 (((cfg0.win 2).blk t).view.emb y) = V m c main_v0 y
  refine congrArg (V m c main_v0) (funext fun a => Fin.ext ?_)
  obtain ⟨-, -, -, -, h0, h1, -⟩ := idx_facts t
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

/-- Every point sees the first bias, as a one-row matrix. -/
theorem blk3_read (c : Dev nD) (t : Fin cfg0.N) (d : Fin 128) :
    iblk m c 3 t (ix2 (0 : Fin 1) d) = m ((c : Thread nD τ).loc main_arg3) (ix1 d) := by
  rw [← V_v2 m c d]
  show V m c main_v2 (((cfg0.win 3).blk t).view.emb (ix2 (0 : Fin 1) d)) = V m c main_v2 _
  refine congrArg (V m c main_v2) (funext fun a => Fin.ext ?_)
  obtain ⟨-, -, -, -, -, -, h0, h1, -⟩ := idx_facts t
  match a with
  | ⟨0, _⟩ => show win0_3.index t (0 : Fin 2) * 1 + 1 * 0 = 0; rw [h0]
  | ⟨1, _⟩ => show win0_3.index t (1 : Fin 2) * 128 + 1 * d.val = d.val; rw [h1]; omega

/-- Every point sees the whole of the second layer's weights. -/
theorem blk4_read (c : Dev nD) (t : Fin cfg0.N) (y : S256x128.Idx) :
    iblk m c 4 t y = m ((c : Thread nD τ).loc main_arg4) y := by
  rw [← V_v1 m c y]
  show V m c main_v1 (((cfg0.win 4).blk t).view.emb y) = V m c main_v1 y
  refine congrArg (V m c main_v1) (funext fun a => Fin.ext ?_)
  obtain ⟨-, -, -, -, -, -, -, -, h0, h1, -⟩ := idx_facts t
  match a with
  | ⟨0, _⟩ => show win0_4.index t (0 : Fin 2) * 256 + 1 * (y 0).val = (y 0).val; rw [h0]; omega
  | ⟨1, _⟩ => show win0_4.index t (1 : Fin 2) * 128 + 1 * (y 1).val = (y 1).val; rw [h1]; omega

/-- Every point sees the second bias, as a one-row matrix. -/
theorem blk5_read (c : Dev nD) (t : Fin cfg0.N) (o : Fin 128) :
    iblk m c 5 t (ix2 (0 : Fin 1) o) = m ((c : Thread nD τ).loc main_arg5) (ix1 o) := by
  rw [← V_v3 m c o]
  show V m c main_v3 (((cfg0.win 5).blk t).view.emb (ix2 (0 : Fin 1) o)) = V m c main_v3 _
  refine congrArg (V m c main_v3) (funext fun a => Fin.ext ?_)
  obtain ⟨-, -, -, -, -, -, -, -, -, -, h0, h1, -⟩ := idx_facts t
  match a with
  | ⟨0, _⟩ => show win0_5.index t (0 : Fin 2) * 1 + 1 * 0 = 0; rw [h0]
  | ⟨1, _⟩ => show win0_5.index t (1 : Fin 2) * 128 + 1 * o.val = o.val; rw [h1]; omega

/-! ## What a point writes back, and the array -/

/-- What the body leaves at point `t`, as a function of the block's index: the layer at node `200 t + p`. -/
theorem block_fn_eq (c : Dev nD) (t : Fin cfg0.N) :
    (k0_pay2 (F := Ideal) (iblk m c 0 t) (scratchFn (iblk m c 2 t) (iblk m c 3 t) (iblk m c 1 t)) (iblk m c 4 t) (iblk m c 5 t)
        : S200x128.Idx → EReal)
      = fun y => Gm m c (ix2 (⟨200 * t.val + (y 0).val, by have := t_lt t; have := idx2_lt0 y; omega⟩ : Fin 10000)
          (⟨(y 1).val, idx2_lt1 y⟩ : Fin 128)) := by
  funext y
  obtain ⟨p, o, rfl⟩ : ∃ (p : Fin 200) (o : Fin 128), y = ix2 p o := ⟨y 0, y 1, eq_ix2 y⟩
  refine (point_value (iblk m c 0 t) (iblk m c 1 t) (iblk m c 2 t) (iblk m c 3 t) (iblk m c 4 t) (iblk m c 5 t) p o).trans ?_
  show _ = Gm m c (ix2 (⟨200 * t.val + p.val, by have := t_lt t; have := p.isLt; omega⟩ : Fin 10000) o)
  unfold Gm
  rw [G_apply]
  have e0 : (fun e => iblk m c 0 t (ix2 p e))
      = fun e => m ((c : Thread nD τ).loc main_arg0) (ix2 (⟨200 * t.val + p.val, by have := t_lt t; have := p.isLt; omega⟩ : Fin 10000) e) :=
    funext fun e => blk0_read m c t p e
  have e1 : (fun (k : Fin 32) (e : Fin 128) => iblk m c 1 t (ix2 (⟨p.val * 32 + k.val, by have := p.isLt; have := k.isLt; omega⟩ : Fin 6400) e))
      = fun k e => m ((c : Thread nD τ).loc main_arg1)
          (ix2 (⟨(200 * t.val + p.val) * 32 + k.val, by have := t_lt t; have := p.isLt; have := k.isLt; omega⟩ : Fin 320000) e) :=
    funext fun k => funext fun e => (blk1_read m c t _ e).trans
      (congrArg (m ((c : Thread nD τ).loc main_arg1)) (congrArg (fun r => ix2 r e) (Fin.ext (by
        show 6400 * t.val + (p.val * 32 + k.val) = (200 * t.val + p.val) * 32 + k.val; omega))))
  have e2 : (iblk m c 2 t : S128x128.Idx → EReal) = m ((c : Thread nD τ).loc main_arg2) := funext fun y => blk2_read m c t y
  have e3 : (fun d => iblk m c 3 t (ix2 (0 : Fin 1) d)) = fun d => m ((c : Thread nD τ).loc main_arg3) (ix1 d) :=
    funext fun d => blk3_read m c t d
  have e4 : (iblk m c 4 t : S256x128.Idx → EReal) = m ((c : Thread nD τ).loc main_arg4) := funext fun y => blk4_read m c t y
  have e5 : (fun o' => iblk m c 5 t (ix2 (0 : Fin 1) o')) = fun o' => m ((c : Thread nD τ).loc main_arg5) (ix1 o') :=
    funext fun o' => blk5_read m c t o'
  rw [e0, e1, e2, e3, e4, e5]

/-- WHAT POINT `t` WRITES BACK is block `t` of the layer of the argument arrays. -/
theorem flushed_eq (c : Dev nD) (t : Fin cfg0.N) :
    (dats m 0 c).flushed 6 t = ((cfg0.win 6).blk t).view.read (Elt Ideal) (Gm m c) := by
  rw [flushed6_A, out_eq, block_fn_eq]
  funext j
  show Gm m c _ = Gm m c (((cfg0.win 6).blk t).view.emb j)
  refine congrArg (Gm m c) (funext fun a => Fin.ext ?_)
  obtain ⟨-, -, -, -, -, -, -, -, -, -, -, -, h0, h1⟩ := idx_facts t
  match a with
  | ⟨0, _⟩ => show 200 * t.val + (j 0).val = win0_6.index t (0 : Fin 2) * 200 + 1 * (j 0).val; rw [h0]; omega
  | ⟨1, _⟩ => show (j 1).val = win0_6.index t (1 : Fin 2) * 128 + 1 * (j 1).val; rw [h1]; omega

/-- An index of the output array is in point `t`'s block iff each coordinate is in the block's range on its axis. -/
theorem mem_blk (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v4).slice (win0_6.rect t)).set ↔ _
  rw [View.set_slice_whole, Rect.mem_set_unit]
  exact Iff.rfl

/-- The 50 blocks cover the output array: row `r` is in the block of point `r / 200`. -/
theorem cover (i : S10000x128.Idx) : ∃ t : Fin cfg0.N, (cfg0.win 6).flush t = true ∧ i ∈ ((cfg0.win 6).blk t).view.set := by
  have hi0 : (i 0).val < 10000 := idx2_lt0 i
  have hi1 : (i 1).val < 128 := idx2_lt1 i
  let t : Fin cfg0.N := ⟨(i 0).val / 200, by rw [show cfg0.N = 50 from N_0]; omega⟩
  refine ⟨t, flush0_6 t, ?_⟩
  rw [mem_blk]
  obtain ⟨-, -, -, -, -, -, -, -, -, -, -, -, h0, h1⟩ := idx_facts t
  have ht : t.val = (i 0).val / 200 := rfl
  intro a
  match a with
  | ⟨0, _⟩ => show win0_6.index t (0 : Fin 2) * 200 ≤ (i 0).val ∧ (i 0).val < win0_6.index t (0 : Fin 2) * 200 + 200; rw [h0, ht]; omega
  | ⟨1, _⟩ => show win0_6.index t (1 : Fin 2) * 128 ≤ (i 1).val ∧ (i 1).val < win0_6.index t (1 : Fin 2) * 128 + 128; rw [h1]; omega

/-- THE OUTPUT ARRAY after the run is the layer of the argument arrays. -/
theorem final (c : Dev nD) : (dats m 0 c).arrAt 6 cfg0.N = Gm m c :=
  (dats m 0 c).arrAt_eq_of_cover 6 (Gm m c) (fun t _ => flushed_eq m c t) cover

/-- THE KERNEL'S RUN: every weakly fair execution terminates with the result array at the layer of the argument arrays
    and the arguments unchanged. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.PoolArray

end
-- ==== Proof.PoolRef.lean ====
/-
  The reference program is the specification.

  The reference computes, on whole arrays, exactly the pooling layer that `Cert.PoolSpec.G` describes node by node:
  a dense layer and a rectifier on each of the 320000 neighbour rows; the array of results read as 10000 groups of
  32 rows; the feature-wise maximum over each group, folded from -∞; the source row joined with that maximum into 256
  features; a second dense layer and rectifier. Each stage is read here at one index, outermost last, and the index
  arithmetic of the regrouping (row `32 n + k` of the flat array is row `k` of group `n`) is the only computation.
-/
import proofs.«169337_j68796786147566_2_alg».proof.Proof.Gen.ReferenceIdeal.Read
import proofs.«169337_j68796786147566_2_alg».proof.Proof.PoolSpec
import Idealize.ShloMosaic.PureOps.Ideal.Laws
import Idealize.ShloMosaic.Lib.ValueIdx
import Idealize.ShloMosaic.Lib.Pipeline.Value

noncomputable section

namespace Cert.PoolRef

open Idealize.ShloMosaic Idealize.ShloMosaic.ValueIdx Cert.ReferenceIdeal Cert.ReferenceIdeal.Gen Cert.ReferenceIdeal.Read

/-- A neighbour row through the first dense layer, the bias and the rectifier: entry (r, d) of the rectified array is
    `max (Σ e, x1 (r, e) * x2 (e, d) + x3 d) 0`. -/
theorem hidden_eq (x1 : FVec Ideal S320000x128 .f32) (x2 : FVec Ideal S128x128 .f32) (x3 : FVec Ideal S128 .f32)
    (r : Fin 320000) (d : Fin 128) :
    val_main_v4 (F := Ideal) x1 x2 x3 (ix2 r d)
      = Cert.PoolSpec.nodeHidden (fun e => x1 (ix2 r e)) x2 (fun d' => x3 (ix1 d')) d := by
  have el : ∀ k : Fin 128, lidx_main_v0 (ix2 r d) k = ix2 r k := fun k =>
    funext fun a => Fin.ext (by match a with | ⟨0, _⟩ => rfl | ⟨1, _⟩ => rfl)
  have er : ∀ k : Fin 128, ridx_main_v0 (ix2 r d) k = ix2 k d := fun k =>
    funext fun a => Fin.ext (by match a with | ⟨0, _⟩ => rfl | ⟨1, _⟩ => rfl)
  have eb : idx_main_v1 (idx_main_v2 (ix2 r d)) = ix1 d :=
    funext fun a => Fin.ext (by match a with | ⟨0, _⟩ => rfl)
  rw [val_main_v4_apply, val_main_v3_apply, val_main_v0_apply, val_main_v2_apply, val_main_v1_apply,
    val_main_call0_v0_apply, val_main_call0_cst_apply, eb]
  simp only [el, er, Ideal.maximumf_def, Ideal.addf_def, Ideal.ofBits_def]
  rfl

/-- The reduce's shapes: axis 1 of [10000, 32, 128] dropped leaves [10000, 128]. -/
theorem reduces_mid : S10000x32x128.Reduces [1] S10000x128 := by decide

/-- The reduced index (n, d) with coordinate `k` put back on the dropped axis is (n, k, d). -/
theorem lift_mid (n : Fin 10000) (d : Fin 128) (k : Fin (S10000x32x128.size 1)) :
    reduces_mid.lift (ix2 n d) k = ix3 n (⟨k.val, k.isLt⟩ : Fin 32) d := by
  funext c; apply Fin.ext
  match c with
  | ⟨0, _⟩ => rfl
  | ⟨1, _⟩ => rfl
  | ⟨2, _⟩ => rfl

/-- Regrouping: entry (n, k, d) of the [10000, 32, 128] array is entry (32 n + k, d) of the flat one, since
    `((32 n + k) · 128 + d) / 128 = 32 n + k` and `((32 n + k) · 128 + d) % 128 = d` for `d < 128`. -/
theorem regroup_idx (n : Fin 10000) (k : Fin 32) (d : Fin 128) :
    idx_main_v5 (ix3 n k d)
      = ix2 (⟨n.val * 32 + k.val, by have := n.isLt; have := k.isLt; omega⟩ : Fin 320000) d := by
  funext a; apply Fin.ext
  match a with
  | ⟨0, _⟩ =>
    show ((n.val * 32 + k.val) * 128 + d.val) / 128 = n.val * 32 + k.val
    have := d.isLt; omega
  | ⟨1, _⟩ =>
    show ((n.val * 32 + k.val) * 128 + d.val) % 128 = d.val
    have := d.isLt; omega

/-- The maximum over a node's 32 neighbours: entry (n, d) of the reduced array is the fold of `max` from -∞ over
    `k < 32` of the rectified dense layer on neighbour row `32 n + k`. -/
theorem pooled_eq (x1 : FVec Ideal S320000x128 .f32) (x2 : FVec Ideal S128x128 .f32) (x3 : FVec Ideal S128 .f32)
    (n : Fin 10000) (d : Fin 128) :
    val_main_v6 (F := Ideal) x1 x2 x3 (ix2 n d)
      = Cert.PoolSpec.nodePooled
          (fun k e => x1 (ix2 (⟨n.val * 32 + k.val, by have := n.isLt; have := k.isLt; omega⟩ : Fin 320000) e))
          x2 (fun d' => x3 (ix1 d')) d := by
  unfold val_main_v6
  rw [Host.reduce_eq_fold_single FloatOps.maximumf _ _ reducesTo_S10000x32x128_S10000x128_d1 reduces_mid h_S_]
  unfold Cert.PoolSpec.nodePooled
  have hf : (val_main_v5 (F := Ideal) x1 x2 x3 ∘ reduces_mid.lift (ix2 n d))
      = fun k : Fin 32 => Cert.PoolSpec.nodeHidden
          (fun e => x1 (ix2 (⟨n.val * 32 + k.val, by have := n.isLt; have := k.isLt; omega⟩ : Fin 320000) e))
          x2 (fun d' => x3 (ix1 d')) d := funext fun k => by
    show val_main_v5 (F := Ideal) x1 x2 x3 (reduces_mid.lift (ix2 n d) k) = _
    rw [lift_mid, val_main_v5_apply, regroup_idx]
    exact hidden_eq x1 x2 x3 _ d
  exact congrArg (fun f => Finset.fold max Cert.PoolSpec.negInfW f (Finset.univ : Finset (Fin 32))) hf

/-- The join: entry (n, e) of the [10000, 256] array is the source row's entry `e` for `e < 128`, and the pooled
    row's entry `e - 128` otherwise. -/
theorem cat_eq (x0 : FVec Ideal S10000x128 .f32) (x1 : FVec Ideal S320000x128 .f32) (x2 : FVec Ideal S128x128 .f32)
    (x3 : FVec Ideal S128 .f32) (n : Fin 10000) (e : Fin 256) :
    val_main_v7 (F := Ideal) x0 x1 x2 x3 (ix2 n e)
      = Cert.PoolSpec.nodeCat (fun e' => x0 (ix2 n e'))
          (Cert.PoolSpec.nodePooled
            (fun k e' => x1 (ix2 (⟨n.val * 32 + k.val, by have := n.isLt; have := k.isLt; omega⟩ : Fin 320000) e'))
            x2 (fun d' => x3 (ix1 d'))) e := by
  unfold val_main_v7 Cert.PoolSpec.nodeCat
  by_cases h : e.val < 128
  · rw [dif_pos h]
    exact concatenate_pair_apply_left (1 : Fin S10000x256.rank) x0 (val_main_v6 (F := Ideal) x1 x2 x3)
      concatenates_S10000x128_S10000x128_S10000x256_d1 (ix2 n e) rfl (ix2 n (⟨e.val, h⟩ : Fin 128))
      (fun b => by match b with | ⟨0, _⟩ => rfl | ⟨1, _⟩ => rfl)
  · rw [dif_neg h, ← pooled_eq]
    exact concatenate_pair_apply_right (1 : Fin S10000x256.rank) x0 (val_main_v6 (F := Ideal) x1 x2 x3)
      concatenates_S10000x128_S10000x128_S10000x256_d1 (ix2 n e) rfl rfl
      (ix2 n (⟨e.val - 128, by have := e.isLt; omega⟩ : Fin 128))
      (fun b hb => by
        match b, hb with
        | ⟨0, _⟩, _ => rfl
        | ⟨1, _⟩, hb => exact absurd rfl hb)
      (by show e.val - 128 + 128 = e.val; omega)

/-- The reference's result is the specification: the second dense layer, bias and rectifier on the joined row. -/
theorem ref_eq (x0 : FVec Ideal S10000x128 .f32) (x1 : FVec Ideal S320000x128 .f32) (x2 : FVec Ideal S128x128 .f32) (x3 : FVec Ideal S128 .f32) (x4 : FVec Ideal S256x128 .f32) (x5 : FVec Ideal S128 .f32) :
    val_main_v12 (F := Ideal) x0 x1 x2 x3 x4 x5 = Cert.PoolSpec.G x0 x1 x2 x3 x4 x5 := by
  funext i
  obtain ⟨n, o, rfl⟩ : ∃ (n : Fin 10000) (o : Fin 128), i = ix2 n o := ⟨i 0, i 1, eq_ix2 i⟩
  rw [Cert.PoolSpec.G_apply]
  have el : ∀ k : Fin 256, lidx_main_v8 (ix2 n o) k = ix2 n k := fun k =>
    funext fun a => Fin.ext (by match a with | ⟨0, _⟩ => rfl | ⟨1, _⟩ => rfl)
  have er : ∀ k : Fin 256, ridx_main_v8 (ix2 n o) k = ix2 k o := fun k =>
    funext fun a => Fin.ext (by match a with | ⟨0, _⟩ => rfl | ⟨1, _⟩ => rfl)
  have eb : idx_main_v9 (idx_main_v10 (ix2 n o)) = ix1 o :=
    funext fun a => Fin.ext (by match a with | ⟨0, _⟩ => rfl)
  rw [val_main_v12_apply, val_main_v11_apply, val_main_v8_apply, val_main_v10_apply, val_main_v9_apply,
    val_main_call1_v0_apply, val_main_call1_cst_apply, eb]
  simp only [el, er, cat_eq, Ideal.maximumf_def, Ideal.addf_def, Ideal.ofBits_def]
  rfl

end Cert.PoolRef

end
-- ==== Proof.lean ====
/-
  The certificate of a pooling graph layer, kernel against reference, over the extended reals.

  Both programs compute, for each of 10000 nodes, `max ([src, pooled] · W + b) 0` where `pooled` is the feature-wise
  maximum, over the node's 32 neighbours, of `max (neighbour · W_pool + b_pool) 0` (`Cert.PoolSpec.G`). The reference
  does so on whole arrays (`Cert.PoolRef.ref_eq`). The kernel does so 200 nodes per grid point, filling a scratch
  buffer with the pooled rows 40 nodes per loop trip before the second dense layer (`Cert.PoolBody.out_eq`,
  `Cert.PoolPoint.point_value`), and its 50 output blocks tile the result (`Cert.PoolArray.final`). A change of float
  format is the identity on extended reals, a matrix product from a zero accumulator is the plain sum of products, and
  the two maxima are the same fold, so no algebraic law beyond the reading of each operation is needed and the inputs'
  finiteness is not used. Nothing was rewritten when the kernel was idealized, so `preserves` has nothing to state.
-/
import proofs.«169337_j68796786147566_2_alg».proof.Defs
import proofs.«169337_j68796786147566_2_alg».proof.Proof.Gen.Kernel
import proofs.«169337_j68796786147566_2_alg».proof.Proof.Gen.KernelIdeal
import proofs.«169337_j68796786147566_2_alg».proof.Proof.Gen.ReferenceIdeal
import proofs.«169337_j68796786147566_2_alg».proof.Proof.Gen.Pre_finite_inputs
import proofs.«169337_j68796786147566_2_alg».proof.Proof.KernelFrame
import proofs.«169337_j68796786147566_2_alg».proof.Proof.KernelIdealFrame
import proofs.«169337_j68796786147566_2_alg».proof.Proof.Gen.ReferenceIdeal.Run
import proofs.«169337_j68796786147566_2_alg».proof.Proof.Gen.ReferenceIdeal.Read
import proofs.«169337_j68796786147566_2_alg».proof.Proof.PoolArray
import proofs.«169337_j68796786147566_2_alg».proof.Proof.PoolRef
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The idealized reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the layer of those arguments. -/
theorem algebraic : Cert.algebraic_KernelIdeal_ReferenceIdeal := by
  intro m ρ m' ρ' _ hagree
  refine ⟨fun c => Cert.PoolArray.Gm m c, Cert.PoolArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.PoolRef.ref_eq]
  obtain ⟨a0, a1, a2, a3, a4, a5⟩ := hagree c
  rw [a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
